-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel

variable [Facts]

def fn {F : FTy → Type} [FloatOps F] (main_arg0 : FVec F S32768x512 .f32) (main_arg1 : IVec S32768x512 32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_c_0 : IVec S_ 32 := constantI S_ 32 0#32
  let main_v4 : IVec S32768x512 32 := broadcastInDim S32768x512 ![] bcast_S_S32768x512 main_c_0
  let main_v5 : IVec S32768x512 1 := cmpi .eq main_arg1 main_v4
  let main_c_1 : IVec S_ 32 := constantI S_ 32 1#32
  let main_v6 : IVec S32768x512 32 := broadcastInDim S32768x512 ![] bcast_S_S32768x512 main_c_1
  let main_v7 : IVec S32768x512 1 := cmpi .eq main_arg1 main_v6
  let main_v8 : IVec S32768x512 1 := ori main_v5 main_v7
  let main_c_2 : IVec S_ 1 := constantI S_ 1 1#1
  let main_v9 : IVec S_ 1 := (fun x v => Host.reduce IntOp.andi x v reducesTo_S32768x512_S_d0_1 h_S_) main_v8 main_c_2
  let main_v10 : IVec S_ 1 := andi main_v3 main_v9
  main_v10
-- ==== Kernel.lean ====
abbrev S32768x512 : Shape := ⟨2, ![32768, 512]⟩
abbrev S2x1x128 : Shape := ⟨3, ![2, 1, 128]⟩
abbrev S2048x512 : Shape := ⟨2, ![2048, 512]⟩
abbrev S1x1x128 : Shape := ⟨3, ![1, 1, 128]⟩
abbrev S1x1 : Shape := ⟨2, ![1, 1]⟩
abbrev S2048 : Shape := ⟨1, ![2048]⟩
abbrev S2048x1 : Shape := ⟨2, ![2048, 1]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S32768x512, .f32⟩
  | .hbm, ⟨1, _⟩ => ⟨S32768x512, .i32⟩
  | .hbm, ⟨2, _⟩ => ⟨S2x1x128, .f32⟩
  | .hbm, ⟨3, _⟩ => ⟨S2x1x1, .f32⟩
  | .hbm, ⟨4, _⟩ => ⟨S2, .f32⟩
  | .hbm, ⟨5, _⟩ => ⟨S_, .f32⟩
  | .hbm, ⟨6, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .i32⟩
  | .local _ .vmem, ⟨3, _⟩ => ⟨S2048x512, .i32⟩
  | .local _ .vmem, ⟨4, _⟩ => ⟨S1x1x128, .f32⟩
  | .local _ .vmem, ⟨5, _⟩ => ⟨S1x1x128, .f32⟩
  | .local _ .vmem, ⟨6, _⟩ => ⟨S1x1, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_16 : BitVec 32 := 0#32
  let v41 : BitVec 1 := Scalar.cmpi .ne v40 c0_i32_16
  v41

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x512_S2048x512_0_0 : ∀ a, (![0, 0] : Fin 2 → Nat) a + S2048x512.size a ≤ S2048x512.size a
  h_S2048x512 : 0 < S2048x512.numel
  natLt_1_32 : 1 < 32
  reduces_S2048x512_S2048 : S2048x512.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S2x1x128_S2x1x1_0_0_0 : S2x1x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S32768x512.size a
  hwx0_1 : ∀ i : grid0.Coords, EltTy.bits .i32 = 32 ∨ (Rect.block (s := S32768x512) S2048x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)

variable [Facts₀]

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32768x512 : Shape := ⟨2, ![32768, 512]⟩
abbrev S_ : Shape := ⟨0, ![]⟩
abbrev S32768 : Shape := ⟨1, ![32768]⟩

abbrev nBuf : Space → Nat
  | .hbm => 34
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .i32⟩
  | .hbm, ⟨2, _⟩ => ⟨S_, .i32⟩
  | .hbm, ⟨3, _⟩ => ⟨S32768x512, .i32⟩
  | .hbm, ⟨4, _⟩ => ⟨S32768x512, .i1⟩
  | .hbm, ⟨5, _⟩ => ⟨S32768x512, .f32⟩
  | .hbm, ⟨6, _⟩ => ⟨S_, .i32⟩
  | .hbm, ⟨7, _⟩ => ⟨S32768x512, .i32⟩
  | .hbm, ⟨8, _⟩ => ⟨S32768x512, .i1⟩
  | .hbm, ⟨9, _⟩ => ⟨S32768x512, .f32⟩
  | .hbm, ⟨10, _⟩ => ⟨S32768x512, .f32⟩
  | .hbm, ⟨11, _⟩ => ⟨S32768x512, .f32⟩
  | .hbm, ⟨12, _⟩ => ⟨S_, .f32⟩
  | .hbm, ⟨13, _⟩ => ⟨S32768, .f32⟩
  | .hbm, ⟨14, _⟩ => ⟨S32768x512, .f32⟩
  | .hbm, ⟨15, _⟩ => ⟨S32768x512, .f32⟩
  | .hbm, ⟨16, _⟩ => ⟨S32768x512, .f32⟩
  | .hbm, ⟨17, _⟩ => ⟨S_, .f32⟩
  | .hbm, ⟨18, _⟩ => ⟨S32768, .f32⟩
  | .hbm, ⟨19, _⟩ => ⟨S_, .f32⟩
  | .hbm, ⟨20, _⟩ => ⟨S32768, .f32⟩
  | .hbm, ⟨21, _⟩ => ⟨S_, .f32⟩
  | .hbm, ⟨22, _⟩ => ⟨S32768, .f32⟩
  | .hbm, ⟨23, _⟩ => ⟨S32768, .f32⟩
  | .hbm, ⟨24, _⟩ => ⟨S_, .f32⟩
  | .hbm, ⟨25, _⟩ => ⟨S32768, .f32⟩
  | .hbm, ⟨26, _⟩ => ⟨S32768, .i1⟩
  | .hbm, ⟨27, _⟩ => ⟨S_, .f32⟩
  | .hbm, ⟨28, _⟩ => ⟨S32768, .f32⟩
  | .hbm, ⟨29, _⟩ => ⟨S32768, .f32⟩
  | .hbm, ⟨30, _⟩ => ⟨S32768, .f32⟩
  | .hbm, ⟨31, _⟩ => ⟨S32768, .f32⟩
  | .hbm, ⟨32, _⟩ => ⟨S_, .f32⟩
  | .hbm, ⟨33, _⟩ => ⟨S_, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S_S32768x512 : S_.BroadcastsInDim S32768x512 (![] : Fin 0 → Fin S32768x512.rank)
  reducesTo_S32768x512_S32768_d1 : S32768x512.ReducesTo [1] S32768
  h_S_ : 0 < S_.numel
  bcast_S_S32768 : S_.BroadcastsInDim S32768 (![] : Fin 0 → Fin S32768.rank)
  reducesTo_S32768_S_d0 : S32768.ReducesTo [0] S_

variable [Facts₀]

class Facts : Prop extends Facts₀ where

variable [Facts]
-- ==== Proof.CasePieces.lean ====
/-
  What one grid point leaves behind, read off the three cases of the body.

  The body keeps a one-entry accumulator between grid points. At the first of a core's eight points it stores the zero word,
  reads it back, adds the point's contribution and stores the sum; at the other points it reads what the point before left,
  adds and stores; at the last point it also broadcasts the accumulator over the core's 128-lane output block. In every
  case each buffer is written by stores through its whole rectangle, so what is left is the last store's payload, and a
  load through the whole rectangle of what one such store left reads that payload:

    first point :  accumulator  =  step x0 x1 zero                      (`acc_first`)
    other points:  accumulator  =  step x0 x1 (what the point before left)   (`acc_middle`, `acc_last`)
    last point  :  output block =  spread (that accumulator)             (`out_last`)

  with `step` the body's addition payload composed with its store's re-shape (`k0_pay1 ∘ k0_pay4`), `zero` the stored zero
  block (`k0_pay3`) and `spread` the broadcast payload (`k0_pay2`). Any float instance.
-/
import proofs.«142765_j63848983822523_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

/-- The accumulator after a point that found `acc` in it: the point's contribution added, as stored. -/
abbrev step (x0 : Vec F S2048x512 .f32) (x1 : Vec F S2048x512 .i32) (acc : Vec F S1x1 .f32) : Vec F S1x1 .f32 :=
  k0_pay1 (k0_pay4 x0 x1 acc)

/-- A middle point (neither first nor last of its core): the accumulator ends at `step` of what it held. -/
theorem acc_middle (c : Dev nD) (i : grid0.Coords) (a2 : Memref sig .tc .vmem S2048x512 .f32) (h2 : a2.IsWhole) (a3 : Memref sig .tc .vmem S2048x512 .i32) (h3 : a3.IsWhole) (a4 : Memref sig .tc .vmem S1x1x128 .f32) (h4 : a4.IsWhole) (a5 : Memref sig .tc .vmem S1x1 .f32) (h5 : a5.IsWhole) (hc0 : ¬cond0_0 i) (hc1 : ¬cond0_1 i)
    (x0 : Vec F S2048x512 .f32) (x1 : Vec F S2048x512 .i32) (xs0 : Vec F S1x1 .f32) :
    sout0_B_0 c i a2 h2 a3 h3 a4 h4 a5 h5 hc0 hc1 x0 x1 xs0 = step x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero (S := S1x1) off2]
  simp only [View.readAt_eq_ld, h2.read_unread, h3.read_unread, h5.read_unread, View.ld_unit_zero (S := S2048x512) off2,
    View.ld_unit_zero (S := S1x1) off2]

/-- The first point of a core: the zero block stored, read back, and the contribution added to it. -/
theorem acc_first (c : Dev nD) (i : grid0.Coords) (a2 : Memref sig .tc .vmem S2048x512 .f32) (h2 : a2.IsWhole) (a3 : Memref sig .tc .vmem S2048x512 .i32) (h3 : a3.IsWhole) (a4 : Memref sig .tc .vmem S1x1x128 .f32) (h4 : a4.IsWhole) (a5 : Memref sig .tc .vmem S1x1 .f32) (h5 : a5.IsWhole) (hc0 : cond0_0 i) (hc1 : ¬cond0_1 i)
    (x0 : Vec F S2048x512 .f32) (x1 : Vec F S2048x512 .i32) :
    sout0_A_0 c i a2 h2 a3 h3 a4 h4 a5 h5 hc0 hc1 x0 x1 = step x0 x1 k0_pay3 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) off2, View.readCov_unit_zero (S := S1x1) _ off2]
  simp only [View.readAt_eq_ld, h2.read_unread, h3.read_unread, View.ld_unit_zero (S := S2048x512) off2]

/-- The last point of a core: the accumulator as at a middle point; -/
theorem acc_last (c : Dev nD) (i : grid0.Coords) (a2 : Memref sig .tc .vmem S2048x512 .f32) (h2 : a2.IsWhole) (a3 : Memref sig .tc .vmem S2048x512 .i32) (h3 : a3.IsWhole) (a4 : Memref sig .tc .vmem S1x1x128 .f32) (h4 : a4.IsWhole) (a5 : Memref sig .tc .vmem S1x1 .f32) (h5 : a5.IsWhole) (hc0 : ¬cond0_0 i) (hc1 : cond0_1 i)
    (x0 : Vec F S2048x512 .f32) (x1 : Vec F S2048x512 .i32) (xs0 : Vec F S1x1 .f32) :
    sout0_C_0 c i a2 h2 a3 h3 a4 h4 a5 h5 hc0 hc1 x0 x1 xs0 = step x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero (S := S1x1) off2]
  simp only [View.readAt_eq_ld, h2.read_unread, h3.read_unread, h5.read_unread, View.ld_unit_zero (S := S2048x512) off2,
    View.ld_unit_zero (S := S1x1) off2]

/-- and the output block is that accumulator, read back and spread over the block's lanes. -/
theorem out_last (c : Dev nD) (i : grid0.Coords) (a2 : Memref sig .tc .vmem S2048x512 .f32) (h2 : a2.IsWhole) (a3 : Memref sig .tc .vmem S2048x512 .i32) (h3 : a3.IsWhole) (a4 : Memref sig .tc .vmem S1x1x128 .f32) (h4 : a4.IsWhole) (a5 : Memref sig .tc .vmem S1x1 .f32) (h5 : a5.IsWhole) (hc0 : ¬cond0_0 i) (hc1 : cond0_1 i)
    (x0 : Vec F S2048x512 .f32) (x1 : Vec F S2048x512 .i32) (xs0 : Vec F S1x1 .f32) :
    out0_C_2 c i a2 h2 a3 h3 a4 h4 a5 h5 hc0 hc1 x0 x1 xs0 = k0_pay2 (step x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero (S := S1x1x128) off3, View.readCov_unit_zero (S := S1x1) _ off2]
  simp only [View.readAt_eq_ld, h2.read_unread, h3.read_unread, h5.read_unread, View.ld_unit_zero (S := S2048x512) off2,
    View.ld_unit_zero (S := S1x1) off2]

end Cert.KernelIdeal.Pieces

end
-- ==== Proof.LibERealSum.lean ====
/-
  Finite sums of real numbers inside the extended reals.

  `coe_sum`: the coercion `ℝ → EReal` commutes with a finite sum (Mathlib states it for `+` and for `*`, not for `∑`).
  `lowrank_swap`: for real `s`, `u : ι → ℝ`, `B : ι → κ → ℝ`, `a : κ → ℝ` over finite index types,

      ∑ᵣ (s · ∑ₙ uₙ · Bₙᵣ) · aᵣ  =  ∑ₙ uₙ · (s · ∑ᵣ aᵣ · Bₙᵣ)        (as extended reals)

  — a vector pushed through a rank-κ factorization from either end. It is an identity of REAL numbers (distributivity and an
  exchange of two finite sums); on the extended reals it fails at the infinities, which is why it is stated over
  coercions.
-/
import Mathlib.Data.EReal.Operations
import Mathlib.Algebra.BigOperators.Ring.Finset
import Mathlib.Algebra.BigOperators.Group.Finset.Sigma
import Mathlib.Tactic.Ring

namespace Cert.Lib.ERealSum

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- `∑ᵣ (s · ∑ₙ uₙ·Bₙᵣ) · aᵣ = ∑ₙ uₙ · (s · ∑ᵣ aᵣ·Bₙᵣ)` on real numbers, read in the extended reals: both are
    `s · ∑ₙ ∑ᵣ uₙ·Bₙᵣ·aᵣ`, by distributivity and the exchange of the two finite sums. -/
theorem lowrank_swap {ι κ : Type*} [Fintype ι] [Fintype κ] (s : ℝ) (u : ι → ℝ) (Bm : ι → κ → ℝ) (a : κ → ℝ) :
    ∑ r, ((s : EReal) * ∑ n, (u n : EReal) * (Bm n r : EReal)) * (a r : EReal)
      = ∑ n, (u n : EReal) * ((s : EReal) * ∑ r, (a r : EReal) * (Bm n r : EReal)) := by
  simp only [← EReal.coe_mul, ← coe_sum]
  refine congrArg _ ?_
  simp only [Finset.mul_sum, Finset.sum_mul]
  rw [Finset.sum_comm]
  exact Finset.sum_congr rfl fun n _ => Finset.sum_congr rfl fun r _ => by ring

end Cert.Lib.ERealSum
-- ==== Proof.PairRankLaw.lean ====
/-
  A pairwise exponential-margin ranking loss, one row at a time, on the extended reals.

  A row holds scores `o k` and labels `l k` (32-bit integers). With `pos k = [l k = 1]` the loss of the row is

      (∑ₖ neg k · exp (o k)) · (∑ₖ pos k · exp (-(o k)))  /  num,      num = (∑ₖ pos k) · (∑ₖ neg k), replaced by 512 where it is 0.

  It is written here in two spellings. `rowFused` takes ONE exponential per entry, `exp (-(o k))` where the label is 1 and
  `exp (o k)` elsewhere, weighs it by `pos k` and by `1 - pos k`, and counts the negatives as `512 - ∑ₖ pos k`. `rowPlain`
  takes `neg k = [l k = 0]`, two exponentials, and counts the negatives as `∑ₖ neg k`. When every label of the row is 0 or 1
  and the row has 512 entries the two are the same extended real (`rowFused_eq_rowPlain`): entry by entry
  `(1 - pos) · e = neg · exp o` and `pos · e = pos · exp (-o)` (a factor 0 annihilates whatever it meets, `0 - o = -o`, so no
  finiteness of the scores is used), and `512 - ∑ pos = ∑ (1 - pos) = ∑ neg` is an identity of real numbers. With a label
  outside {0, 1} they differ: that entry counts as a negative in the first spelling and as nothing in the second.
-/
import Idealize.ShloMosaic.PureOps.Ideal
import Idealize.ShloMosaic.PureOps.Ideal.Laws
import proofs.«142765_j63848983822523_2_alg».proof.Proof.LibERealSum

noncomputable section

namespace Cert.PairRank

open Idealize.ShloMosaic

/-- The f32 words of 0, 1 and 512. -/
abbrev w0 : EReal := Ideal.ofBits .f32 0x00000000#32
abbrev w1 : EReal := Ideal.ofBits .f32 0x3F800000#32
abbrev w512 : EReal := Ideal.ofBits .f32 0x44000000#32

theorem w1_eq : w1 = ((1 : ℝ) : EReal) := by
  simp [w1, Ideal.ofBits, Ideal.ieee, -EReal.coe_mul]; norm_num

theorem w512_eq : w512 = ((512 : ℝ) : EReal) := by
  simp [w512, Ideal.ofBits, Ideal.ieee, -EReal.coe_mul]; norm_num

/-- The label tests, one bit each. -/
abbrev is1 (t : BitVec 32) : BitVec 1 := IntOp.cmpi .eq t 1#32
abbrev is0 (t : BitVec 32) : BitVec 1 := IntOp.cmpi .eq t 0#32

/-- `[t = 1]` as a number, the test's bit widened to 32 bits and read signed; -/
def posS (t : BitVec 32) : EReal := ((((is1 t).setWidth 32 : BitVec 32).toInt : ℝ) : EReal)
/-- the same with the bit read unsigned; -/
def posU (t : BitVec 32) : EReal := (((is1 t).toNat : ℝ) : EReal)
/-- and `[t = 0]`, the bit read unsigned. -/
def negU (t : BitVec 32) : EReal := (((is0 t).toNat : ℝ) : EReal)

/-- `[t = 1]` as a real number. -/
def ind (t : BitVec 32) : ℝ := if t = 1#32 then 1 else 0

theorem posS_eq_ind (t : BitVec 32) : posS t = (ind t : EReal) := by
  unfold posS ind is1 IntOp.cmpi
  by_cases h : t = 1#32
  · subst h; simp
  · have hb : (t == 1#32) = false := by simpa using h
    simp [h, hb]

theorem posU_eq_ind (t : BitVec 32) : posU t = (ind t : EReal) := by
  unfold posU ind is1 IntOp.cmpi
  by_cases h : t = 1#32
  · subst h; simp
  · have hb : (t == 1#32) = false := by simpa using h
    simp [h, hb]

theorem negU_eq (t : BitVec 32) (h : t = 0#32 ∨ t = 1#32) : negU t = ((1 - ind t : ℝ) : EReal) := by
  rcases h with rfl | rfl
  · simp [negU, ind, is0, IntOp.cmpi]
  · simp [negU, ind, is0, IntOp.cmpi]

/-- The one exponential of the fused spelling: of `0 - x` where the label is 1, of `x` elsewhere. -/
def eFused (x : EReal) (t : BitVec 32) : EReal := Ideal.exp (Scalar.select (is1 t) (w0 - x) x)

theorem eFused_zero (x : EReal) : eFused x 0#32 = Ideal.exp x := by
  unfold eFused Scalar.select is1 IntOp.cmpi
  simp

theorem eFused_one (x : EReal) : eFused x 1#32 = Ideal.exp (-x) := by
  unfold eFused Scalar.select is1 IntOp.cmpi
  simp [w0, Ideal.ofBits_zero_f32, sub_eq_add_neg]

/-- Entry by entry, for a label in {0, 1}: the weight `1 - pos` of the single exponential is `neg · exp x`; -/
theorem neg_term (x : EReal) (t : BitVec 32) (h : t = 0#32 ∨ t = 1#32) :
    (w1 - posS t) * eFused x t = negU t * Ideal.exp x := by
  rw [posS_eq_ind, negU_eq t h, w1_eq, ← EReal.coe_sub]
  rcases h with rfl | rfl
  · rw [eFused_zero]
  · have : ((1 - ind 1#32 : ℝ) : EReal) = 0 := by simp [ind]
    rw [this, zero_mul, zero_mul]

/-- and the weight `pos` of it is `pos · exp (-x)`. -/
theorem pos_term (x : EReal) (t : BitVec 32) (h : t = 0#32 ∨ t = 1#32) :
    posS t * eFused x t = posU t * Ideal.exp (-x) := by
  rw [posS_eq_ind, posU_eq_ind]
  rcases h with rfl | rfl
  · have : ((ind 0#32 : ℝ) : EReal) = 0 := by simp [ind]
    rw [this, zero_mul, zero_mul]
  · rw [eFused_one]

variable {ι : Type} [Fintype ι]

/-- The row's loss from its four sums. -/
def rowOf (sneg spos npos nneg : EReal) : EReal :=
  Ideal.div (sneg * spos) (Scalar.select (Ideal.cmp .oeq (npos * nneg) w0) w512 (npos * nneg))

/-- The fused spelling: one exponential per entry, the negatives counted as `512 - ∑ pos`. -/
def rowFused (o : ι → EReal) (l : ι → BitVec 32) : EReal :=
  rowOf (∑ k, (w1 - posS (l k)) * eFused (o k) (l k)) (∑ k, posS (l k) * eFused (o k) (l k))
    (∑ k, posS (l k)) (w512 - ∑ k, posS (l k))

/-- The plain spelling: two masks, two exponentials, the negatives counted by their mask. -/
def rowPlain (o : ι → EReal) (l : ι → BitVec 32) : EReal :=
  rowOf (∑ k, negU (l k) * Ideal.exp (o k)) (∑ k, posU (l k) * Ideal.exp (-(o k)))
    (∑ k, posU (l k)) (∑ k, negU (l k))

/-- `512 - ∑ pos = ∑ neg` on a row of 512 labels in {0, 1}: an identity of real numbers. -/
theorem count_neg (hcard : Fintype.card ι = 512) (l : ι → BitVec 32) (hl : ∀ k, l k = 0#32 ∨ l k = 1#32) :
    w512 - ∑ k, posS (l k) = ∑ k, negU (l k) := by
  have h1 : ∑ k, posS (l k) = ((∑ k, ind (l k) : ℝ) : EReal) := by
    rw [Cert.Lib.ERealSum.coe_sum]; exact Finset.sum_congr rfl fun k _ => posS_eq_ind _
  have h2 : ∑ k, negU (l k) = ((∑ k, (1 - ind (l k)) : ℝ) : EReal) := by
    rw [Cert.Lib.ERealSum.coe_sum]; exact Finset.sum_congr rfl fun k _ => negU_eq _ (hl k)
  rw [h1, h2, w512_eq, ← EReal.coe_sub]
  congr 1
  rw [Finset.sum_sub_distrib, Finset.sum_const, Finset.card_univ, hcard]
  simp

/-- The two spellings of a row's loss agree on a row of 512 labels in {0, 1}. -/
theorem rowFused_eq_rowPlain (hcard : Fintype.card ι = 512) (o : ι → EReal) (l : ι → BitVec 32)
    (hl : ∀ k, l k = 0#32 ∨ l k = 1#32) : rowFused o l = rowPlain o l := by
  unfold rowFused rowPlain
  rw [count_neg hcard l hl]
  rw [Finset.sum_congr rfl fun k _ => neg_term (o k) (l k) (hl k),
    Finset.sum_congr rfl fun k _ => pos_term (o k) (l k) (hl k)]
  have h3 : ∑ k, posS (l k) = ∑ k, posU (l k) :=
    Finset.sum_congr rfl fun k _ => (posS_eq_ind _).trans (posU_eq_ind _).symm
  rw [h3]

end Cert.PairRank

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.LibColumnSum.lean ====
/-
  A column sum of a matrix, read at coordinates.

  A `vector.multi_reduction <add>` of an `[a, b]` matrix over its FIRST axis, read on the extended reals at column `j`, is
  the sum of the column's entries `(k, j)` — the companion, for the first axis, of the row sum over the second. Stated
  twice: for any accumulator word that is the sum's neutral word, and for the zero word `0x00000000` of f32 with the
  hypothesis typed `0x00000000 = 0x00000000`, the form in which a printed kernel body carries it.
-/
import Idealize.ShloMosaic.PureOps.Ideal.Laws
import Idealize.ShloMosaic.Lib.ValueIdx

noncomputable section

namespace Idealize.ShloMosaic.ValueKeepdims

open Idealize.ShloMosaic Idealize.ShloMosaic.ValueIdx

/-- Column `j` with row `k` put back on the reduced first axis is `(k, j)`. -/
theorem lift_axis0_ix2 {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- A `vector.multi_reduction <add>` of an `[a, b]` matrix over its FIRST axis, at column `j`: the column's sum. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_axis0_ix2 h j k)

/-- A column sum with the zero word as the printed accumulator. -/
theorem colSum_at {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (j : Fin b) :
    multiReduction .add [0] ⟨1, ![b]⟩ src 0x00000000#32 h hφ hacc (ix1 j) = ∑ k : Fin a, src (ix2 k j) :=
  multiReduction_add_col src 0x00000000#32 h hφ hacc j

end Idealize.ShloMosaic.ValueKeepdims

end
-- ==== Proof.BodyStep.lean ====
/-
  One grid point's contribution, on the extended reals.

  The body's payload at a point takes the point's block of scores `x0` and of labels `x1` (2048 rows of 512) and the
  accumulator `acc`. Per row it forms, with ONE exponential per entry, the fused spelling of the row's loss
  (`Cert.PairRank.rowFused`): three sums along the row kept as columns, then `sneg · spos / num` on columns; it then sums
  the column of 2048 losses and adds the accumulator. So the new accumulator's one entry is

      acc + ∑ₚ rowFused (row p of x0) (row p of x1)                    (`step_apply`; the sum is `blockLoss`),

  the stored zero block's entry is the zero word (`zero_apply`), and the block the last point writes holds the
  accumulator's entry in every lane (`spread_apply`). The steps: an addition and a division are entry by entry; a row sum
  kept as a column at `(p, 0)` is the sum of row `p` (`rowSumCol`); the column sum of a one-column matrix, re-shaped to
  `[1, 1]`, is the sum of that column.
-/
import proofs.«142765_j63848983822523_2_alg».proof.Proof.Gen.KernelIdeal.Skeleton
import proofs.«142765_j63848983822523_2_alg».proof.Proof.PairRankLaw
import proofs.«142765_j63848983822523_2_alg».proof.Proof.LibKeepdims
import proofs.«142765_j63848983822523_2_alg».proof.Proof.LibColumnSum
import Idealize.ShloMosaic.Lib.ValueIdx
import Idealize.ShloMosaic.Lib.Pipeline.Value

noncomputable section

namespace Cert.KernelIdeal.BodyStep

open Cert.KernelIdeal Cert.KernelIdeal.Gen Idealize.ShloMosaic Idealize.ShloMosaic.ValueIdx
open Idealize.ShloMosaic.ValueKeepdims Cert.PairRank

/-- A row sum kept as a column, read at `(p, 0)`: the sum of row `p`. -/
theorem rowSumCol (v : FVec Ideal S2048x512 .f32) (h : S2048x512.Reduces [1] S2048) (hc : S2048.ShapeCasts S2048x1)
    (hφ : FKind.Formats .f32) (hacc : (0x00000000#32 : BitVec 32) = FKind.add.neutral .f32 hφ) (p : Fin 2048) :
    shapeCast S2048x1 (multiReduction .add [1] S2048 v 0x00000000#32 h hφ hacc) hc (ix2 p (0 : Fin 1))
      = ∑ k : Fin 512, v (ix2 p k) :=
  (shapeCast_a_a1_apply _ hc p 0).trans (multiReduction_add_row v 0x00000000#32 h hφ hacc p)

/-- The loss of a row from its four sums respects equal sums. -/
theorem rowOf_congr {a a' b b' n n' : EReal} (ha : a = a') (hb : b = b') (hn : n = n') :
    rowOf a b n (w512 - n) = rowOf a' b' n' (w512 - n') := by subst ha hb hn; rfl

/-- The column arithmetic after the three row sums, entry by entry: `a · b / num` with `num = n · (512 - n)`, replaced
    by 512 where it is 0. -/
theorem colTail (a b n : FVec Ideal S2048x1 .f32) (j : S2048x1.Idx) :
    divf (mulf a b)
        (select (cmpf .oeq (mulf n (subf (broadcast S2048x1 (Scalar.ofBits (F := Ideal) .f32 0x44000000#32)) n))
            (broadcast S2048x1 (Scalar.ofBits (F := Ideal) .f32 0x00000000#32)))
          (broadcast S2048x1 (Scalar.ofBits (F := Ideal) .f32 0x44000000#32))
          (mulf n (subf (broadcast S2048x1 (Scalar.ofBits (F := Ideal) .f32 0x44000000#32)) n))) j
      = rowOf (a j) (b j) (n j) (w512 - n j) := rfl

/-- The sum of the fused row losses of a block of 2048 rows. -/
def blockLoss (x0 : Vec Ideal S2048x512 .f32) (x1 : Vec Ideal S2048x512 .i32) : EReal :=
  ∑ p : Fin 2048, rowFused (fun k : Fin 512 => x0 (ix2 p k)) (fun k : Fin 512 => x1 (ix2 p k))

/-- THE STEP at its one entry: the accumulator plus the fused losses of the block's 2048 rows. -/
theorem step_apply (x0 : Vec Ideal S2048x512 .f32) (x1 : Vec Ideal S2048x512 .i32) (acc : Vec Ideal S1x1 .f32) :
    k0_pay1 (k0_pay4 (F := Ideal) x0 x1 acc) (ix2 (0 : Fin 1) (0 : Fin 1))
      = acc (ix2 (0 : Fin 1) (0 : Fin 1)) + blockLoss x0 x1 := by
  unfold blockLoss k0_pay1
  refine (congrFun (shapeCast_self _ shapeCasts_S1x1_S1x1) _).trans ?_
  unfold k0_pay4
  refine congrArg (acc (ix2 (0 : Fin 1) (0 : Fin 1)) + ·) ?_
  refine (shapeCast_a_a1_apply _ shapeCasts_S1_S1x1 (0 : Fin 1) (0 : Fin 1)).trans ?_
  refine (colSum_at _ reduces_S2048x1_S1 (.inl rfl) rfl (0 : Fin 1)).trans ?_
  refine Finset.sum_congr rfl fun p _ => ?_
  refine (colTail _ _ _ (ix2 p (0 : Fin 1))).trans ?_
  exact rowOf_congr (rowSumCol _ reduces_S2048x512_S2048 shapeCasts_S2048_S2048x1 (.inl rfl) rfl p)
    (rowSumCol _ reduces_S2048x512_S2048 shapeCasts_S2048_S2048x1 (.inl rfl) rfl p)
    (rowSumCol _ reduces_S2048x512_S2048 shapeCasts_S2048_S2048x1 (.inl rfl) rfl p)

/-- The zero block's entry is the zero word. -/
theorem zero_apply (j : S1x1.Idx) : k0_pay3 (F := Ideal) j = w0 := by
  unfold k0_pay3
  exact congrFun (shapeCast_self _ shapeCasts_S1x1_S1x1) j

/-- The block the last point writes holds, in every lane, the accumulator's entry. -/
theorem spread_apply (v : Vec Ideal S1x1 .f32) (l : Fin 128) :
    k0_pay2 (F := Ideal) v (ix3 (0 : Fin 1) (0 : Fin 1) l) = v (ix2 (0 : Fin 1) (0 : Fin 1)) := by
  unfold k0_pay2
  refine (broadcastTo_apply _ broadcasts_S1x1x1_S1x1x128 _ (ix3 (0 : Fin 1) (0 : Fin 1) (0 : Fin 1)) (fun a => by
    match a with
    | ⟨0, _⟩ => rfl
    | ⟨1, _⟩ => rfl
    | ⟨2, _⟩ => rfl)).trans ?_
  refine (congrFun (shapeCast_self _ shapeCasts_S1x1x1_S1x1x1) _).trans ?_
  exact shapeCast_apply _ shapeCasts_S1x1_S1x1x1 _ (ix2 (0 : Fin 1) (0 : Fin 1)) (by decide)

end Cert.KernelIdeal.BodyStep

end
-- ==== Proof.Accumulate.lean ====
/-
  The accumulator across a core's eight grid points.

  The sixteen grid points are visited in order; point `n` belongs to core `n / 8` and is that core's step `n % 8`. The
  accumulator is reset to the zero word at a core's first step and every step adds the point's contribution — the sum, over
  the 2048 rows of the point's blocks, of the fused spelling of the row's loss (`contrib`, a `blockLoss`). So after point `n` its entry is

      zero word + ∑_{j ≤ n % 8} contrib (8 · (n / 8) + j)                           (`acc_eq`, by induction on the point),

  and at a core's last step the output block holds that entry in each of its 128 lanes (`out_eq`).
-/
import proofs.«142765_j63848983822523_2_alg».proof.Proof.CasePieces
import proofs.«142765_j63848983822523_2_alg».proof.Proof.BodyStep

noncomputable section

open Idealize.ShloMosaic Idealize.ShloMosaic.TcCoe Idealize.SL.Sem

namespace Cert.KernelIdeal.Accum

open Cert.KernelIdeal Cert.KernelIdeal.Gen Cert.KernelIdeal.Pieces Cert.KernelIdeal.BodyStep
open Idealize.ShloMosaic.ValueIdx Cert.PairRank

variable (m : (ℓ : Loc nD τ sig) → Buf (Elt Ideal) ℓ)

/-- The point's block of scores and of labels, as the region finds the arrays. -/
abbrev scores (c : Dev nD) (t : Fin cfg0.N) : Vec Ideal S2048x512 .f32 := iblk m c 0 t
abbrev labels (c : Dev nD) (t : Fin cfg0.N) : Vec Ideal S2048x512 .i32 := iblk m c 1 t

/-- Point `n`'s contribution (0 past the grid). -/
def contrib (c : Dev nD) (n : ℕ) : EReal :=
  if h : n < cfg0.N then blockLoss (scores m c ⟨n, h⟩) (labels m c ⟨n, h⟩) else 0

theorem contrib_of_lt (c : Dev nD) (n : ℕ) (h : n < cfg0.N) :
    contrib m c n = blockLoss (scores m c ⟨n, h⟩) (labels m c ⟨n, h⟩) := dif_pos h

/-- A core's first step, at the accumulator's entry: the zero word plus the block's loss. -/
theorem first_entry (c : Dev nD) (i : grid0.Coords) (a2 : Memref sig .tc .vmem S2048x512 .f32) (h2 : a2.IsWhole) (a3 : Memref sig .tc .vmem S2048x512 .i32) (h3 : a3.IsWhole) (a4 : Memref sig .tc .vmem S1x1x128 .f32) (h4 : a4.IsWhole) (a5 : Memref sig .tc .vmem S1x1 .f32) (h5 : a5.IsWhole) (hc0 : cond0_0 i) (hc1 : ¬cond0_1 i)
    (x0 : Vec Ideal S2048x512 .f32) (x1 : Vec Ideal S2048x512 .i32) :
    sout0_A_0 c i a2 h2 a3 h3 a4 h4 a5 h5 hc0 hc1 x0 x1 (ix2 (0 : Fin 1) (0 : Fin 1)) = w0 + blockLoss x0 x1 := by
  refine (congrFun (acc_first c i a2 h2 a3 h3 a4 h4 a5 h5 hc0 hc1 x0 x1) _).trans ?_
  refine (step_apply x0 x1 (k0_pay3 (F := Ideal))).trans ?_
  rw [zero_apply]

/-- A middle step: what the accumulator held plus the block's loss. -/
theorem middle_entry (c : Dev nD) (i : grid0.Coords) (a2 : Memref sig .tc .vmem S2048x512 .f32) (h2 : a2.IsWhole) (a3 : Memref sig .tc .vmem S2048x512 .i32) (h3 : a3.IsWhole) (a4 : Memref sig .tc .vmem S1x1x128 .f32) (h4 : a4.IsWhole) (a5 : Memref sig .tc .vmem S1x1 .f32) (h5 : a5.IsWhole) (hc0 : ¬cond0_0 i) (hc1 : ¬cond0_1 i)
    (x0 : Vec Ideal S2048x512 .f32) (x1 : Vec Ideal S2048x512 .i32) (xs0 : Vec Ideal S1x1 .f32) :
    sout0_B_0 c i a2 h2 a3 h3 a4 h4 a5 h5 hc0 hc1 x0 x1 xs0 (ix2 (0 : Fin 1) (0 : Fin 1))
      = xs0 (ix2 (0 : Fin 1) (0 : Fin 1)) + blockLoss x0 x1 :=
  (congrFun (acc_middle c i a2 h2 a3 h3 a4 h4 a5 h5 hc0 hc1 x0 x1 xs0) _).trans (step_apply x0 x1 xs0)

/-- A core's last step: the same. -/
theorem last_entry (c : Dev nD) (i : grid0.Coords) (a2 : Memref sig .tc .vmem S2048x512 .f32) (h2 : a2.IsWhole) (a3 : Memref sig .tc .vmem S2048x512 .i32) (h3 : a3.IsWhole) (a4 : Memref sig .tc .vmem S1x1x128 .f32) (h4 : a4.IsWhole) (a5 : Memref sig .tc .vmem S1x1 .f32) (h5 : a5.IsWhole) (hc0 : ¬cond0_0 i) (hc1 : cond0_1 i)
    (x0 : Vec Ideal S2048x512 .f32) (x1 : Vec Ideal S2048x512 .i32) (xs0 : Vec Ideal S1x1 .f32) :
    sout0_C_0 c i a2 h2 a3 h3 a4 h4 a5 h5 hc0 hc1 x0 x1 xs0 (ix2 (0 : Fin 1) (0 : Fin 1))
      = xs0 (ix2 (0 : Fin 1) (0 : Fin 1)) + blockLoss x0 x1 :=
  (congrFun (acc_last c i a2 h2 a3 h3 a4 h4 a5 h5 hc0 hc1 x0 x1 xs0) _).trans (step_apply x0 x1 xs0)

/-- … and the output block's lane `l` is the accumulator's entry. -/
theorem last_lane (c : Dev nD) (i : grid0.Coords) (a2 : Memref sig .tc .vmem S2048x512 .f32) (h2 : a2.IsWhole) (a3 : Memref sig .tc .vmem S2048x512 .i32) (h3 : a3.IsWhole) (a4 : Memref sig .tc .vmem S1x1x128 .f32) (h4 : a4.IsWhole) (a5 : Memref sig .tc .vmem S1x1 .f32) (h5 : a5.IsWhole) (hc0 : ¬cond0_0 i) (hc1 : cond0_1 i)
    (x0 : Vec Ideal S2048x512 .f32) (x1 : Vec Ideal S2048x512 .i32) (xs0 : Vec Ideal S1x1 .f32) (l : Fin 128) :
    out0_C_2 c i a2 h2 a3 h3 a4 h4 a5 h5 hc0 hc1 x0 x1 xs0 (ix3 (0 : Fin 1) (0 : Fin 1) l)
      = sout0_C_0 c i a2 h2 a3 h3 a4 h4 a5 h5 hc0 hc1 x0 x1 xs0 (ix2 (0 : Fin 1) (0 : Fin 1)) :=
  (congrFun (out_last c i a2 h2 a3 h3 a4 h4 a5 h5 hc0 hc1 x0 x1 xs0) _).trans
    ((spread_apply _ l).trans (congrFun (acc_last c i a2 h2 a3 h3 a4 h4 a5 h5 hc0 hc1 x0 x1 xs0) _).symm)

/-- The partial sum of a core's contributions through step `n % 8`. -/
def upTo (c : Dev nD) (n : ℕ) : EReal := w0 + ∑ j ∈ Finset.range (n % 8 + 1), contrib m c (8 * (n / 8) + j)

/-- Starting a core: only the point's own contribution. -/
theorem upTo_first (c : Dev nD) (n : ℕ) (h : n < cfg0.N) (h0 : n % 8 = 0) :
    w0 + blockLoss (scores m c ⟨n, h⟩) (labels m c ⟨n, h⟩) = upTo m c n := by
  unfold upTo
  have e : 8 * (n / 8) + 0 = n := by omega
  rw [h0, Finset.sum_range_one, e, contrib_of_lt m c n h]

/-- Continuing a core: one more contribution. -/
theorem upTo_next (c : Dev nD) (n : ℕ) (h : n + 1 < cfg0.N) (h0 : ¬(n + 1) % 8 = 0) :
    upTo m c n + blockLoss (scores m c ⟨n + 1, h⟩) (labels m c ⟨n + 1, h⟩) = upTo m c (n + 1) := by
  unfold upTo
  have e1 : (n + 1) % 8 + 1 = (n % 8 + 1) + 1 := by omega
  have e2 : (n + 1) / 8 = n / 8 := by omega
  have e3 : 8 * (n / 8) + (n % 8 + 1) = n + 1 := by omega
  rw [e1, e2, Finset.sum_range_succ (fun j => contrib m c (8 * (n / 8) + j)) (n % 8 + 1), e3, contrib_of_lt m c (n + 1) h, add_assoc]

/-- At a core's first step the accumulator's entry is the zero word plus the point's contribution; -/
theorem at_first (c : Dev nD) (T : Fin cfg0.N) (h0 : T.val % 8 = 0) :
    (outsAt0 m c T.val T.isLt).2 (ix2 (0 : Fin 1) (0 : Fin 1)) = w0 + blockLoss (scores m c T) (labels m c T) := by
  have h1 : ¬T.val % 8 = 7 := by omega
  rw [outsAt0_A m c T h0 h1]
  dsimp only
  exact first_entry c (grid0.coords T) (ms0_0 T) (hs0_0 T) (ms0_1 T) (hs0_1 T) (ms0_2 T) (hs0_2 T) scM0_0 (Memref.isWhole_whole _) _ _ (iblk m c 0 T) (iblk m c 1 T)

/-- at any other step, what the point before left plus the point's contribution. -/
theorem at_next (c : Dev nD) (T : Fin cfg0.N) (h0 : ¬T.val % 8 = 0) :
    (outsAt0 m c T.val T.isLt).2 (ix2 (0 : Fin 1) (0 : Fin 1))
      = (outsAt0 m c (T.val - 1) (Nat.lt_of_le_of_lt (Nat.sub_le _ _) T.isLt)).2 (ix2 (0 : Fin 1) (0 : Fin 1))
        + blockLoss (scores m c T) (labels m c T) := by
  by_cases h1 : T.val % 8 = 7
  · rw [outsAt0_C m c T h0 h1]
    dsimp only
    exact last_entry c (grid0.coords T) (ms0_0 T) (hs0_0 T) (ms0_1 T) (hs0_1 T) (ms0_2 T) (hs0_2 T) scM0_0 (Memref.isWhole_whole _) _ _ (iblk m c 0 T) (iblk m c 1 T) _
  · rw [outsAt0_B m c T h0 h1]
    dsimp only
    exact middle_entry c (grid0.coords T) (ms0_0 T) (hs0_0 T) (ms0_1 T) (hs0_1 T) (ms0_2 T) (hs0_2 T) scM0_0 (Memref.isWhole_whole _) _ _ (iblk m c 0 T) (iblk m c 1 T) _

/-- THE ACCUMULATOR after point `n`: the zero word plus the core's contributions so far. -/
theorem acc_eq (c : Dev nD) : ∀ (n : ℕ) (h : n < cfg0.N),
    (outsAt0 m c n h).2 (ix2 (0 : Fin 1) (0 : Fin 1)) = upTo m c n
  | 0, h => (at_first m c ⟨0, h⟩ rfl).trans (upTo_first m c 0 h rfl)
  | n + 1, h => by
    by_cases h0 : (n + 1) % 8 = 0
    · exact (at_first m c ⟨n + 1, h⟩ h0).trans (upTo_first m c (n + 1) h h0)
    · refine (at_next m c ⟨n + 1, h⟩ h0).trans ?_
      show (outsAt0 m c n (Nat.lt_of_succ_lt h)).2 (ix2 (0 : Fin 1) (0 : Fin 1)) + _ = _
      rw [acc_eq c n (Nat.lt_of_succ_lt h)]
      exact upTo_next m c n h h0

/-- THE OUTPUT BLOCK at a core's last step: every lane holds the core's whole sum. -/
theorem out_eq (c : Dev nD) (T : Fin cfg0.N) (h7 : T.val % 8 = 7) (l : Fin 128) :
    (outsAt0 m c T.val T.isLt).1 (ix3 (0 : Fin 1) (0 : Fin 1) l) = upTo m c T.val := by
  have h0 : ¬T.val % 8 = 0 := by omega
  refine Eq.trans ?_ (acc_eq m c T.val T.isLt)
  rw [outsAt0_C m c T h0 h7]
  dsimp only
  exact last_lane c (grid0.coords T) (ms0_0 T) (hs0_0 T) (ms0_1 T) (hs0_1 T) (ms0_2 T) (hs0_2 T) scM0_0 (Memref.isWhole_whole _) _ _ (iblk m c 0 T) (iblk m c 1 T) _ l

end Cert.KernelIdeal.Accum

end
-- ==== Proof.LibRank1Sum.lean ====
/-
  A sum over the index set of a rank-1 shape is the sum over its one coordinate.

  An index of the shape `[n]` is a function from the one axis to `Fin n`; `idxEquiv1` reads it at that axis, with inverse the
  constructor `ix1`, and `sum_idx1` re-indexes a finite sum through it (the rank-1 companion of the rank-2 `sum_idx2`).
-/
import Idealize.ShloMosaic.Lib.ValueIdx

namespace Idealize.ShloMosaic.ValueIdx

/-- An index of `[n]` is its one coordinate. -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Idealize.ShloMosaic.ValueIdx
-- ==== Proof.ResultArray.lean ====
/-
  From the accumulator to the program's result.

  Only a core's last step writes its output block back, so row `cc` of the [2, 1, 128] output array ends holding, in each
  of its 128 lanes, core `cc`'s total: the zero word plus the contributions of its eight points (`final`: what the last step
  writes back is that row of `totals`, and the two rows cover the array). After the region the program takes lane 0 of each
  row, re-shapes the two numbers to a vector and sums it from the zero word: the result is

      zero word + ∑_{cc < 2} (zero word + ∑_{j < 8} contrib (8 · cc + j))                     (`tail_eq`, `run`).
-/
import proofs.«142765_j63848983822523_2_alg».proof.Proof.Accumulate
import proofs.«142765_j63848983822523_2_alg».proof.Proof.LibRank1Sum
import Idealize.ShloMosaic.Lib.Pipeline.Value
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Accum Idealize.ShloMosaic.ValueIdx Cert.PairRank

variable (m : (ℓ : Loc nD τ sig) → Buf (Elt Ideal) ℓ) (ρ : Dev nD → PrngReg)

/-- Core `cc`'s total: the accumulator after its last step. -/
def coreTotal (c : Dev nD) (cc : ℕ) : EReal := upTo m c (8 * cc + 7)

/-- The output array: row `cc` holds core `cc`'s total in every lane. -/
def totals (c : Dev nD) : S2x1x128.Idx → Elt Ideal .f32 := fun i => coreTotal m c (i 0).val

/-- The output's block index at point `t`: row `t / 8`, nothing else moves. -/
theorem block_index : ∀ t : Fin cfg0.N, win0_2.index t (0 : Fin 3) = t.val / 8 ∧ win0_2.index t (1 : Fin 3) = 0
    ∧ win0_2.index t (2 : Fin 3) = 0 :=
  (by decide +kernel : ∀ t : Fin grid0.N, win0_2.index t (0 : Fin 3) = t.val / 8 ∧ win0_2.index t (1 : Fin 3) = 0
    ∧ win0_2.index t (2 : Fin 3) = 0)

/-- Each row is some writing point's block. -/
theorem block_onto : ∀ q : Fin 2, ∃ t : Fin cfg0.N, (cfg0.win 2).flush t = true ∧ win0_2.index t = ![q.val, 0, 0] :=
  (by decide +kernel : ∀ q : Fin 2, ∃ t : Fin grid0.N, win0_2.flush t = true ∧ win0_2.index t = ![q.val, 0, 0])

/-- WHAT A CORE'S LAST STEP WRITES BACK is its row of `totals`. -/
theorem flushed_eq (c : Dev nD) (t : Fin cfg0.N) (hf : (cfg0.win 2).flush t = true) :
    (dats m 0 c).flushed 2 t = ((cfg0.win 2).blk t).view.read (Elt Ideal) (totals m c) := by
  have h7 : t.val % 8 = 7 := (flush0_2 t).mp hf
  obtain ⟨e0, e1, e2⟩ := block_index t
  show (cfg0.win 2).cut (grid0.coords t) ((dats m 0 c).after 2 t) = _
  rw [after0_2]
  funext y
  show (outsAt0 m c t.val t.isLt).1 y = coreTotal m c ((((cfg0.win 2).blk t).view.emb y) 0).val
  have hy0 : (y 0).val < 1 := (y 0).isLt
  have hy1 : (y 1).val < 1 := (y 1).isLt
  have hemb : ((((cfg0.win 2).blk t).view.emb y) 0).val = t.val / 8 := by
    show win0_2.index t (0 : Fin 3) * 1 + 1 * (y 0).val = _
    rw [e0]; omega
  have hy : y = ix3 (0 : Fin 1) (0 : Fin 1) (⟨(y 2).val, (y 2).isLt⟩ : Fin 128) := by
    funext a; apply Fin.ext
    match a with
    | ⟨0, _⟩ => show (y 0).val = 0; omega
    | ⟨1, _⟩ => show (y 1).val = 0; omega
    | ⟨2, _⟩ => rfl
  rw [hemb, hy, out_eq m c t h7]
  unfold coreTotal
  congr 1; omega

/-- The two rows cover the array. -/
theorem cover (i : S2x1x128.Idx) : ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 128 := (i 2).isLt
  obtain ⟨t, hf, ht⟩ := block_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, hf, ?_⟩
  show i ∈ ((View.whole main_v0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 128 ≤ (i 2).val ∧ (i 2).val < win0_2.index t (2 : Fin 3) * 128 + 128; omega

/-- THE OUTPUT ARRAY after the region. -/
theorem final (c : Dev nD) : (dats m 0 c).arrAt 2 cfg0.N = totals m c :=
  (dats m 0 c).arrAt_eq_of_cover 2 (totals m c) (flushed_eq m c) cover

/-- The program's result: the zero word plus the two cores' totals. -/
def result (c : Dev nD) : S_.Idx → Elt Ideal .f32 := fun _ => w0 + ∑ cc : Fin 2, coreTotal m c cc.val

/-- The host lines after the region on an array `A`: lane 0 of each row, re-shaped to a vector and summed from the zero
    word — the zero word plus the two rows' lane-0 entries. -/
theorem tail_of (A : S2x1x128.Idx → Elt Ideal .f32) (i : S_.Idx) :
    Host.reduceAdd (F := Ideal) (shapeCast S2 (extractStridedSlice S2x1x1 ![0, 0, 0] A slices_S2x1x128_S2x1x1_0_0_0)
        shapeCasts_S2x1x1_S2) (constant (F := Ideal) S_ .f32 0x00000000#32) reducesTo_S2_S_d0 h_S_ i
      = w0 + ∑ cc : Fin 2, A (ix3 cc (0 : Fin 1) (0 : Fin 128)) := by
  simp only [Host.reduceAdd, Ideal.hostReduceAdd_def]
  refine (Ideal.hostReduceAdd_total reducesTo_S2_S_d0 (fun b => b.elim0) _ _ i).trans ?_
  rw [sum_idx1]
  refine congrArg₂ (· + ·) rfl (Finset.sum_congr rfl fun cc _ => ?_)
  refine (shapeCast_apply _ shapeCasts_S2x1x1_S2 (ix1 cc) (ix3 cc (0 : Fin 1) (0 : Fin 1)) (by
    rw [Shape.rowMajor_val_three, Shape.rowMajor_val_one]
    show (cc.val * 1 + 0) * 1 + 0 = cc.val
    omega)).trans ?_
  unfold extractStridedSlice
  refine congrArg A (funext fun a => Fin.ext ?_)
  match a with
  | ⟨0, _⟩ => show 0 + cc.val = cc.val; omega
  | ⟨1, _⟩ => rfl
  | ⟨2, _⟩ => rfl

/-- THE RESULT: what the host lines after the region compute from the output array. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  have hA : Pipeline.withArrays (cfgs 0).spec c (V0 m c) (fun w => (dats m 0 c).arrAt w (cfgs 0).N)
      (Proc.devRef .tc main_v0) = totals m c :=
    (Pipeline.withArrays_arr spec0 launch0.win.arr_inj c _ _ 2).trans (final m c)
  rw [hA]
  funext i
  refine (tail_of (totals m c) i).trans ?_
  rfl

/-- The run, read: the result buffer at `result`, the two argument arrays unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v3 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.RefRow.lean ====
/-
  The reference, one row at a time.

  The reference forms, over the whole [32768, 512] arrays, the masks `pos = [label = 1]` and `neg = [label = 0]`, the four
  row sums `∑ neg · exp o`, `∑ pos · exp (-o)`, `∑ pos`, `∑ neg` (each the host's sum from the zero word), the
  denominator `∑ pos · ∑ neg` replaced by 512 where it is 0, the quotient, and the sum of the 32768 quotients from the
  zero word. Read at row `R` the quotient is the plain spelling of the row's loss (`row_apply`: `Cert.PairRank.rowPlain` of
  row `R` of the scores and labels), and the result is the zero word plus the sum of the rows' losses (`total_apply`).
-/
import proofs.«142765_j63848983822523_2_alg».proof.Proof.RefRead
import proofs.«142765_j63848983822523_2_alg».proof.Proof.PairRankLaw
import proofs.«142765_j63848983822523_2_alg».proof.Proof.LibRank1Sum
import Idealize.ShloMosaic.Lib.ValueIdx

noncomputable section

namespace Cert.ReferenceIdeal.RefRow

open Cert.ReferenceIdeal Cert.ReferenceIdeal.Gen Cert.ReferenceIdeal.ReadP Idealize.ShloMosaic Idealize.ShloMosaic.ValueIdx
open Cert.PairRank

variable (x0 : (⟨S32768x512, .f32⟩ : BufTy).Contents (Elt Ideal)) (x1 : (⟨S32768x512, .i32⟩ : BufTy).Contents (Elt Ideal))

/-- Row `R`'s entry `k`, as each of the four sums indexes it. -/
theorem idx8 (R : Fin 32768) (k : Fin 512) : idx_main_v8 (ix1 R) k = ix2 R k :=
  funext fun a => Fin.ext (by match a with | ⟨0, _⟩ => rfl | ⟨1, _⟩ => rfl)
theorem idx12 (R : Fin 32768) (k : Fin 512) : idx_main_v12 (ix1 R) k = ix2 R k :=
  funext fun a => Fin.ext (by match a with | ⟨0, _⟩ => rfl | ⟨1, _⟩ => rfl)
theorem idx13 (R : Fin 32768) (k : Fin 512) : idx_main_v13 (ix1 R) k = ix2 R k :=
  funext fun a => Fin.ext (by match a with | ⟨0, _⟩ => rfl | ⟨1, _⟩ => rfl)
theorem idx14 (R : Fin 32768) (k : Fin 512) : idx_main_v14 (ix1 R) k = ix2 R k :=
  funext fun a => Fin.ext (by match a with | ⟨0, _⟩ => rfl | ⟨1, _⟩ => rfl)

/-- `∑ neg · exp o` along row `R`. -/
theorem sneg_apply (R : Fin 32768) :
    val_main_v8 (F := Ideal) x0 x1 (ix1 R) = ∑ k : Fin 512, negU (x1 (ix2 R k)) * Ideal.exp (x0 (ix2 R k)) := by
  rw [val_main_v8_apply, show val_main_cst (F := Ideal) (Shape.Idx.first h_S_) = 0 from Ideal.ofBits_zero_f32, zero_add]
  refine Finset.sum_congr rfl fun k _ => ?_
  rw [idx8]
  rfl

/-- `∑ pos · exp (-o)` along row `R`. -/
theorem spos_apply (R : Fin 32768) :
    val_main_v12 (F := Ideal) x0 x1 (ix1 R) = ∑ k : Fin 512, posU (x1 (ix2 R k)) * Ideal.exp (-(x0 (ix2 R k))) := by
  rw [val_main_v12_apply, show val_main_cst_1 (F := Ideal) (Shape.Idx.first h_S_) = 0 from Ideal.ofBits_zero_f32, zero_add]
  refine Finset.sum_congr rfl fun k _ => ?_
  rw [idx12]
  rfl

/-- `∑ pos` along row `R`. -/
theorem npos_apply (R : Fin 32768) :
    val_main_v13 (F := Ideal) x1 (ix1 R) = ∑ k : Fin 512, posU (x1 (ix2 R k)) := by
  rw [val_main_v13_apply, show val_main_cst_2 (F := Ideal) (Shape.Idx.first h_S_) = 0 from Ideal.ofBits_zero_f32, zero_add]
  refine Finset.sum_congr rfl fun k _ => ?_
  rw [idx13]
  rfl

/-- `∑ neg` along row `R`. -/
theorem nneg_apply (R : Fin 32768) :
    val_main_v14 (F := Ideal) x1 (ix1 R) = ∑ k : Fin 512, negU (x1 (ix2 R k)) := by
  rw [val_main_v14_apply, show val_main_cst_3 (F := Ideal) (Shape.Idx.first h_S_) = 0 from Ideal.ofBits_zero_f32, zero_add]
  refine Finset.sum_congr rfl fun k _ => ?_
  rw [idx14]
  rfl

/-- The reference's quotient at row `R` is the plain spelling of that row's loss. -/
theorem row_apply (R : Fin 32768) :
    val_main_v20 (F := Ideal) x0 x1 (ix1 R)
      = rowPlain (fun k : Fin 512 => x0 (ix2 R k)) (fun k : Fin 512 => x1 (ix2 R k)) := by
  rw [val_main_v20_apply, val_main_v19_apply, val_main_v18_apply, val_main_v17_apply, val_main_v15_apply,
    sneg_apply, spos_apply, npos_apply, nneg_apply]
  rfl

/-- The reference's result: the zero word plus the sum of the 32768 rows' losses. -/
theorem total_apply (i : S_.Idx) :
    val_main_v21 (F := Ideal) x0 x1 i
      = w0 + ∑ R : Fin 32768, rowPlain (fun k : Fin 512 => x0 (ix2 R k)) (fun k : Fin 512 => x1 (ix2 R k)) := by
  rw [val_main_v21_apply, sum_idx1]
  refine congrArg₂ (· + ·) rfl (Finset.sum_congr rfl fun R _ => row_apply x0 x1 R)

end Cert.ReferenceIdeal.RefRow

end
-- ==== Proof.LibBlockSum.lean ====
/-
  A sum over K * n consecutive indices as K blocks of n.
-/
import Mathlib.Algebra.BigOperators.Fin
import Mathlib.Logic.Equiv.Fin.Basic

namespace Cert.Lib.BlockSum

/-- Position `j` of block `s`, among `K` blocks of `n` consecutive indices. -/
abbrev at_ {K n : ℕ} (s : Fin K) (j : Fin n) : Fin (K * n) :=
  ⟨s.val * n + j.val, Nat.lt_of_lt_of_le (Nat.add_lt_add_left j.isLt _)
    (by rw [← Nat.succ_mul]; exact Nat.mul_le_mul_right _ s.isLt)⟩

/-- A sum over the `K * n` indices below `K * n` is the sum over the `K` blocks of `n` consecutive indices of each
    block's sum: `∑ᵢ H i = ∑ₛ ∑ⱼ H (s n + j)`, in any commutative monoid (no subtraction, no finiteness of values:
    on the extended reals too). -/
theorem sum_blocks {β : Type*} [AddCommMonoid β] (K n : ℕ) (H : Fin (K * n) → β) :
    ∑ i, H i = ∑ s : Fin K, ∑ j : Fin n, H (at_ s j) := by
  rw [← Equiv.sum_comp finProdFinEquiv H, Fintype.sum_prod_type]
  refine Finset.sum_congr rfl fun s _ => Finset.sum_congr rfl fun j _ => congrArg H (Fin.ext ?_)
  show j.val + n * s.val = s.val * n + j.val
  rw [Nat.mul_comm, Nat.add_comm]

end Cert.Lib.BlockSum
-- ==== Proof.RowBridge.lean ====
/-
  The tiled program's result is the reference's, on labels in {0, 1}.

  Grid point `n` (of 16) stages rows `2048 n … 2048 n + 2047` of the scores and of the labels: entry `(p, k)` of its block is
  entry `(2048 n + p, k)` of the array (`scores_apply`, `labels_apply`: the block index along the rows is `n`, along the
  columns 0). So the point's contribution is the sum of the FUSED losses of those 2048 rows, which on labels in {0, 1} are
  their PLAIN losses (`Cert.PairRank.rowFused_eq_rowPlain`; `contrib_eq`). The result adds, from the zero word, the two
  cores' totals, each the zero word plus its eight points' contributions; the zero word is 0, addition on the extended reals is
  associative and commutative, and the 32768 rows are exactly 2 cores × 8 points × 2048 rows (`regroup`): the result is the
  zero word plus the sum of all rows' plain losses — the reference's result (`result_eq`).
-/
import proofs.«142765_j63848983822523_2_alg».proof.Proof.ResultArray
import proofs.«142765_j63848983822523_2_alg».proof.Proof.RefRow
import proofs.«142765_j63848983822523_2_alg».proof.Proof.LibBlockSum

noncomputable section

open Idealize.ShloMosaic Idealize.ShloMosaic.TcCoe Idealize.SL.Sem

namespace Cert.KernelIdeal.Bridge

open Cert.KernelIdeal Cert.KernelIdeal.Gen Cert.KernelIdeal.Accum Cert.KernelIdeal.Result Cert.KernelIdeal.BodyStep
open Idealize.ShloMosaic.ValueIdx Cert.PairRank Cert.Lib.BlockSum

variable (m : (ℓ : Loc nD τ sig) → Buf (Elt Ideal) ℓ)

/-- The input windows' block index at point `t`: `t` along the rows, 0 along the columns (both windows). -/
theorem in_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Row `p` of point `t`'s block, as a row of the array. -/
abbrev rowAt (t : Fin 16) (p : Fin 2048) : Fin 32768 := at_ (K := 16) (n := 2048) t p

theorem N16 : cfg0.N = 16 := N_0

/-- Entry `(p, k)` of point `t`'s block of scores is entry `(2048 t + p, k)` of the scores. -/
theorem scores_apply (c : Dev nD) (t : Fin cfg0.N) (p : Fin 2048) (k : Fin 512) :
    scores m c t (ix2 p k)
      = m ((c.tc : Thread nD τ).loc main_arg0) (ix2 (rowAt ⟨t.val, lt_of_lt_of_eq t.isLt N16⟩ p) k) := by
  obtain ⟨e0, e1, -, -⟩ := in_index t
  unfold scores iblk
  rw [View.read_apply]
  show m ((c.tc : Thread nD τ).loc main_arg0) _ = m ((c.tc : Thread nD τ).loc main_arg0) _
  refine congrArg (m ((c.tc : Thread nD τ).loc main_arg0)) (funext fun a => Fin.ext ?_)
  match a with
  | ⟨0, _⟩ => show win0_0.index t (0 : Fin 2) * 2048 + 1 * p.val = t.val * 2048 + p.val; rw [e0]; omega
  | ⟨1, _⟩ => show win0_0.index t (1 : Fin 2) * 512 + 1 * k.val = k.val; rw [e1]; omega

/-- The same for the labels. -/
theorem labels_apply (c : Dev nD) (t : Fin cfg0.N) (p : Fin 2048) (k : Fin 512) :
    labels m c t (ix2 p k)
      = m ((c.tc : Thread nD τ).loc main_arg1) (ix2 (rowAt ⟨t.val, lt_of_lt_of_eq t.isLt N16⟩ p) k) := by
  obtain ⟨-, -, e0, e1⟩ := in_index t
  unfold labels iblk
  rw [View.read_apply]
  show m ((c.tc : Thread nD τ).loc main_arg1) _ = m ((c.tc : Thread nD τ).loc main_arg1) _
  refine congrArg (m ((c.tc : Thread nD τ).loc main_arg1)) (funext fun a => Fin.ext ?_)
  match a with
  | ⟨0, _⟩ => show win0_1.index t (0 : Fin 2) * 2048 + 1 * p.val = t.val * 2048 + p.val; rw [e0]; omega
  | ⟨1, _⟩ => show win0_1.index t (1 : Fin 2) * 512 + 1 * k.val = k.val; rw [e1]; omega

/-- The plain loss of row `R` of the arrays. -/
def rowLoss (c : Dev nD) (R : Fin 32768) : EReal :=
  rowPlain (fun k : Fin 512 => m ((c.tc : Thread nD τ).loc main_arg0) (ix2 R k))
    (fun k : Fin 512 => m ((c.tc : Thread nD τ).loc main_arg1) (ix2 R k))

/-- A point's contribution, on labels in {0, 1}: the plain losses of its 2048 rows. -/
theorem contrib_eq (c : Dev nD)
    (hlab : ∀ i, m ((c.tc : Thread nD τ).loc main_arg1) i = 0#32 ∨ m ((c.tc : Thread nD τ).loc main_arg1) i = 1#32)
    (n : ℕ) (h : n < 16) : contrib m c n = ∑ p : Fin 2048, rowLoss m c (rowAt ⟨n, h⟩ p) := by
  have h' : n < cfg0.N := lt_of_lt_of_eq h N16.symm
  rw [contrib_of_lt m c n h']
  unfold blockLoss
  refine Finset.sum_congr rfl fun p _ => ?_
  have e0 : (fun k : Fin 512 => scores m c ⟨n, h'⟩ (ix2 p k))
      = fun k : Fin 512 => m ((c.tc : Thread nD τ).loc main_arg0) (ix2 (rowAt ⟨n, h⟩ p) k) :=
    funext fun k => scores_apply m c ⟨n, h'⟩ p k
  have e1 : (fun k : Fin 512 => labels m c ⟨n, h'⟩ (ix2 p k))
      = fun k : Fin 512 => m ((c.tc : Thread nD τ).loc main_arg1) (ix2 (rowAt ⟨n, h⟩ p) k) :=
    funext fun k => labels_apply m c ⟨n, h'⟩ p k
  rw [e0, e1]
  exact rowFused_eq_rowPlain (by simp) _ _ (fun k => hlab _)

/-- 32768 rows are 2 cores × 8 points × 2048 rows. -/
theorem regroup (f : Fin 32768 → EReal) :
    ∑ R : Fin 32768, f R = ∑ cc : Fin 2, ∑ j : Fin 8, ∑ p : Fin 2048, f (rowAt (at_ (K := 2) (n := 8) cc j) p) :=
  (sum_blocks 16 2048 f).trans (sum_blocks 2 8 fun s : Fin 16 => ∑ p : Fin 2048, f (rowAt s p))

/-- THE RESULT, on labels in {0, 1}: the zero word plus the sum of all rows' plain losses. -/
theorem result_eq (c : Dev nD)
    (hlab : ∀ i, m ((c.tc : Thread nD τ).loc main_arg1) i = 0#32 ∨ m ((c.tc : Thread nD τ).loc main_arg1) i = 1#32)
    (i : S_.Idx) : result m c i = w0 + ∑ R : Fin 32768, rowLoss m c R := by
  show w0 + ∑ cc : Fin 2, coreTotal m c cc.val = _
  refine congrArg (w0 + ·) ?_
  rw [regroup]
  refine Finset.sum_congr rfl fun cc _ => ?_
  have hcc : cc.val < 2 := cc.isLt
  unfold coreTotal upTo
  have e1 : (8 * cc.val + 7) % 8 + 1 = 8 := by omega
  have e2 : (8 * cc.val + 7) / 8 = cc.val := by omega
  rw [e1, e2, Finset.sum_range, show (w0 : EReal) = 0 from Ideal.ofBits_zero_f32, zero_add]
  refine Finset.sum_congr rfl fun j _ => ?_
  have hj : j.val < 8 := j.isLt
  rw [contrib_eq m c hlab (8 * cc.val + j.val) (by omega)]
  refine Finset.sum_congr rfl fun p _ => congrArg (rowLoss m c) (Fin.ext ?_)
  show (8 * cc.val + j.val) * 2048 + p.val = (cc.val * 8 + j.val) * 2048 + p.val
  omega

end Cert.KernelIdeal.Bridge

end
-- ==== Proof.LabelDomain.lean ====
/-
  The precondition, read at one label.

  The precondition is the conjunction of two tests, each an `and` over a whole [32768, 512] array from the constant 1: every
  score's absolute value is below `+inf`, and every label equals 0 or equals 1. Its second half, read at an entry, says that
  the entry's label is the 32-bit word 0 or the word 1 (`label01`); nothing here uses the first half.
-/
import proofs.«142765_j63848983822523_2_alg».proof.Pre_finite_inputs
import Idealize.ShloMosaic.Lib.ReduceAll
import Idealize.ShloMosaic.Lib.ValueIdx
import Idealize.ShloMosaic.Lib.Pipeline.Value

noncomputable section

namespace Cert.Pre_finite_inputs.LabelDomain

open Cert.Pre_finite_inputs Idealize.ShloMosaic

variable [Facts]
open Facts

/-- The scalar shape has one index. -/
instance : Subsingleton S_.Idx := ⟨fun a b => funext fun d => d.elim0⟩

/-- Under the precondition every label is 0 or 1. -/
theorem label01 {F : FTy → Type} [FloatOps F] (x0 : FVec F S32768x512 .f32) (x1 : IVec S32768x512 32)
    (h : fn (F := F) x0 x1 = fun _ => 1#1) (i : S32768x512.Idx) : x1 i = 0#32 ∨ x1 i = 1#32 := by
  have h0 := congrFun h ValueIdx.ix0
  dsimp only [fn] at h0
  obtain ⟨-, h9⟩ := IntOp.andi_eq_one.1 h0
  have h8 := Host.reduce_andi_all _ _ _ _ _ h9 i
  rcases IntOp.ori_eq_one.1 h8 with h5 | h7
  · left
    have e := IntOp.cmpi_eq.1 h5
    rw [e]
    exact broadcastInDim_apply _ bcast_S_S32768x512 _ i ValueIdx.ix0 (fun a => a.elim0)
  · right
    have e := IntOp.cmpi_eq.1 h7
    rw [e]
    exact broadcastInDim_apply _ bcast_S_S32768x512 _ i ValueIdx.ix0 (fun a => a.elim0)

end Cert.Pre_finite_inputs.LabelDomain

end
-- ==== Proof.lean ====
/-
  A pairwise exponential-margin ranking loss over f32[32768, 512] scores and int32[32768, 512] labels, tiled, against its
  plain reference — equal as extended reals when every label is 0 or 1.

  Per row, with `pos = [label = 1]`, both programs form `sneg · spos / num`: `spos = ∑ pos · exp (-o)`,
  `sneg = ∑ neg · exp o`, `num = (∑ pos) · (∑ neg)` replaced by 512 where it is 0; both then sum the 32768 rows.

  * The reference takes `neg = [label = 0]`, two exponentials, and one sum of 32768 quotients from the zero word.
  * The tiled program walks a grid of 2 cores × 8 steps, each point staging 2048 rows. It takes ONE exponential per entry
    (of `0 - o` where the label is 1, of `o` elsewhere), weighs it by `pos` and by `1 - pos`, and counts the negatives as
    `512 - ∑ pos`. A one-entry accumulator is reset to the zero word at a core's first step, every step adds the sum of its
    2048 row losses, and the core's last step spreads the accumulator over the core's row of a [2, 1, 128] output; after the
    region lane 0 of each row is taken and the two numbers are summed from the zero word.

  The two row formulas agree exactly when the row's labels are in {0, 1} (`Cert.PairRank.rowFused_eq_rowPlain`: a zero factor
  annihilates, `0 - o = -o`, and `512 - ∑ pos = ∑ (1 - pos)` over the reals), with no use of the scores being finite; a label
  outside {0, 1} counts as a negative in the tiled program and as nothing in the reference, so the precondition carries the
  label domain, and the proof reads exactly that half of it (`LabelDomain.label01`). The rest is re-association: the zero
  word is 0 and 32768 = 2 · 8 · 2048 (`Bridge.result_eq`).

  The three frames: the tiled programs' are the generated frame certificates; the reference's is its run with the result
  dropped. The idealization rewrote no operation, so `preserves` is `True`.
-/
import proofs.«142765_j63848983822523_2_alg».proof.Defs
import proofs.«142765_j63848983822523_2_alg».proof.Proof.Gen.Kernel
import proofs.«142765_j63848983822523_2_alg».proof.Proof.Gen.Kernel.Skeleton
import proofs.«142765_j63848983822523_2_alg».proof.Proof.Gen.Kernel.Launch
import proofs.«142765_j63848983822523_2_alg».proof.Proof.Gen.Kernel.Points
import proofs.«142765_j63848983822523_2_alg».proof.Proof.Gen.Kernel.Frame
import proofs.«142765_j63848983822523_2_alg».proof.Proof.Gen.KernelIdeal
import proofs.«142765_j63848983822523_2_alg».proof.Proof.Gen.KernelIdeal.Skeleton
import proofs.«142765_j63848983822523_2_alg».proof.Proof.Gen.KernelIdeal.Launch
import proofs.«142765_j63848983822523_2_alg».proof.Proof.Gen.KernelIdeal.Points
import proofs.«142765_j63848983822523_2_alg».proof.Proof.Gen.KernelIdeal.Frame
import proofs.«142765_j63848983822523_2_alg».proof.Proof.Gen.ReferenceIdeal
import proofs.«142765_j63848983822523_2_alg».proof.Proof.Gen.Pre_finite_inputs
import proofs.«142765_j63848983822523_2_alg».proof.Proof.RefRun
import proofs.«142765_j63848983822523_2_alg».proof.Proof.RefRead
import proofs.«142765_j63848983822523_2_alg».proof.Proof.RowBridge
import proofs.«142765_j63848983822523_2_alg».proof.Proof.LabelDomain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- At the ideal instance the tiled program's result buffer ends at the zero word plus the two cores' totals, the reference's
    at the zero word plus the sum of the 32768 rows' plain losses of arguments that agree; under the precondition every label
    is 0 or 1, and then these are one extended real. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2, Cert.ReferenceIdeal.ReadP.val_main_v21_eq]
  funext i
  rw [Cert.ReferenceIdeal.RefRow.total_apply]
  exact (Cert.KernelIdeal.Bridge.result_eq m c
    (Cert.Pre_finite_inputs.LabelDomain.label01 _ _ (hpre c)) i).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
